-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 84
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S1x128, .f32⟩
  | .hbm, ⟨63, _⟩ => ⟨S50000x128, .f32⟩
  | .hbm, ⟨64, _⟩ => ⟨S_, .f32⟩
  | .hbm, ⟨65, _⟩ => ⟨S256x128, .f32⟩
  | .hbm, ⟨66, _⟩ => ⟨S50000x1, .i32⟩
  | .hbm, ⟨67, _⟩ => ⟨S256x128, .f32⟩
  | .hbm, ⟨68, _⟩ => ⟨S_, .f32⟩
  | .hbm, ⟨69, _⟩ => ⟨S50000, .f32⟩
  | .hbm, ⟨70, _⟩ => ⟨S_, .f32⟩
  | .hbm, ⟨71, _⟩ => ⟨S256, .f32⟩
  | .hbm, ⟨72, _⟩ => ⟨S50000x1, .i32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256x1, .f32⟩
  | .hbm, ⟨78, _⟩ => ⟨S256x128, .f32⟩
  | .hbm, ⟨79, _⟩ => ⟨S256x128, .f32⟩
  | .hbm, ⟨80, _⟩ => ⟨S256x10, .f32⟩
  | .hbm, ⟨81, _⟩ => ⟨S1x10, .f32⟩
  | .hbm, ⟨82, _⟩ => ⟨S256x10, .f32⟩
  | .hbm, ⟨83, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S256x128, .f32⟩
  | .hbm, ⟨96, _⟩ => ⟨S50000x1, .i32⟩
  | .hbm, ⟨97, _⟩ => ⟨S256x128, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S256, .f32⟩
  | .hbm, ⟨102, _⟩ => ⟨S50000x1, .i32⟩
  | .hbm, ⟨103, _⟩ => ⟨S256, .f32⟩
  | .hbm, ⟨104, _⟩ => ⟨S_, .f32⟩
  | .hbm, ⟨105, _⟩ => ⟨S256, .f32⟩
  | .hbm, ⟨106, _⟩ => ⟨S256, .f32⟩
  | .hbm, ⟨107, _⟩ => ⟨S256x1, .f32⟩
  | .hbm, ⟨108, _⟩ => ⟨S256x128, .f32⟩
  | .hbm, ⟨109, _⟩ => ⟨S256x128, .f32⟩
  | .hbm, ⟨110, _⟩ => ⟨S256x10, .f32⟩
  | .hbm, ⟨111, _⟩ => ⟨S1x10, .f32⟩
  | .hbm, ⟨112, _⟩ => ⟨S256x10, .f32⟩
  | .hbm, ⟨113, _⟩ => ⟨S256x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.KernelRun.lean ====
/-
  The idealized kernel's run, with its result kept.

  @main is seven segments: a stretch of host operations, a pipelined call of the perceptron kernel, and so on three
  times, ending in the stretch that pools the nodes of each graph and applies the linear head. The buffer contents at
  the segment boundaries are a fold from the launch memory: after a host stretch every buffer it writes holds its
  operation's value of the buffers before; after a call the call's output array holds what the grid points wrote back
  and every other buffer is as before. The last boundary's contents are `W7`.

  Every weakly fair execution ends with each unscoped buffer at `W7`. The frame keeps of this only that the argument
  arrays end as launched; here the result buffer's final contents are kept too: it ends at `W7` of its own reference.
-/
import proofs.«143180_j31911607009304_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents read at the TensorCore's references. -/
abbrev V7 : (c : Dev nD) → (b : Ref sig .tc) → Buf (Elt F) ((c : Thread nD τ).loc b) := fun c b => W7 m ρ c b

set_option backward.isDefEq.respectTransparency.types false in
/-- Every weakly fair execution of @main terminates without a fault, the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v61) = V7 m ρ c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Run

end
-- ==== Proof.HostParts.lean ====
/-
  The host operations both programs share, each group named once.

  Around the perceptron both programs make the same host operations on the same buffers:

  * `aggregate h e`: every node adds to its own row the rows of the nodes that send it a message. The edge list `e`
    holds a row of source nodes and a row of target nodes; a negative source index is wrapped round once by the number
    of nodes; the source rows are gathered, and scattered with addition into a zero array at the target nodes; the sum
    is added to `h`.
  * `poolHead h batch Wl bl`: the rows of `h` are summed per graph (scattered with addition at each node's graph
    number), divided by the graph's node count (a scatter of ones, clamped below at one), and passed through the linear
    head `Wl`, `bl`.

  Neither group is ever opened: the two programs apply them to arrays that are shown equal, so the results are equal by
  congruence. The shapes and the dimension records are the idealized kernel's printed ones; the reference prints the
  same records under its own names.
-/
import proofs.«143180_j31911607009304_1_alg».proof.Proof.Gen.KernelIdeal
import Idealize.ShloMosaic.PureOps.Ideal

noncomputable section

namespace Cert.HostParts

open Cert.KernelIdeal Cert.KernelIdeal.Gen Idealize.ShloMosaic

/-- The row of source nodes of the edge list. -/
def srcRaw (e : IVec S2x800000 32) : IVec S800000 32 :=
  shapeCast _ (extractStridedSlice S1x800000 ![0, 0] e slices_S2x800000_S1x800000_0_0) shapeCasts_S1x800000_S800000

/-- The row of target nodes of the edge list. -/
def dstRaw (e : IVec S2x800000 32) : IVec S800000 32 :=
  shapeCast _ (extractStridedSlice S1x800000 ![1, 0] e slices_S2x800000_S1x800000_1_0) shapeCasts_S1x800000_S800000

/-- A node array with, added to every node's row, the rows of the nodes that send it a message, the source and target
    rows of the edge list given. -/
def aggregateAt (h : FVec Ideal S50000x128 .f32)
    (src dst : IVec S800000 32) : FVec Ideal S50000x128 .f32 :=
  addf h (Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))))

/-- The same from the edge list itself. -/
def aggregate (h : FVec Ideal S50000x128 .f32)
    (e : IVec S2x800000 32) : FVec Ideal S50000x128 .f32 :=
  aggregateAt h (srcRaw e) (dstRaw e)

/-- The mean of the node rows of each graph, through the linear head. -/
def poolHead (h : FVec Ideal S50000x128 .f32)
    (batch : IVec S50000 32)
    (Wl : FVec Ideal S128x10 .f32) (bl : FVec Ideal S10 .f32) :
    FVec Ideal S256x10 .f32 :=
  addf (Host.dotGeneral dot_S256x128_S128x10_S256x10_1_0_0_1_n_n none
      (Host.divf
        (Host.scatterAdd scatter_S256x128_S50000x1_S50000x128_1_0_0_1
          (broadcastInDim S256x128 ![] bcast_S_S256x128 (constant S_ .f32 0x00000000#32))
          (broadcastInDim S50000x1 ![0] bcast_S50000_S50000x1_0 batch) h)
        (broadcastInDim S256x128 ![0, 1] bcast_S256x1_S256x128_0_1
          (broadcastInDim S256x1 ![0] bcast_S256_S256x1_0
            (maximumf
              (Host.scatterAdd scatter_S256_S50000x1_S50000_n_0_0_1
                (broadcastInDim S256 ![] bcast_S_S256 (constant S_ .f32 0x00000000#32))
                (broadcastInDim S50000x1 ![0] bcast_S50000_S50000x1_0 batch)
                (broadcastInDim S50000 ![] bcast_S_S50000 (constant S_ .f32 0x3F800000#32)))
              (broadcastInDim S256 ![] bcast_S_S256 (constant S_ .f32 0x3F800000#32))))))
      Wl)
    (broadcastInDim S256x10 ![0, 1] bcast_S1x10_S256x10_0_1 (broadcastInDim S1x10 ![1] bcast_S10_S1x10_1 bl))

end Cert.HostParts

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«143180_j31911607009304_1_alg».proof.Proof.LibPlainMatmul
import proofs.«143180_j31911607009304_1_alg».proof.Proof.LibHostRowOps
import proofs.«143180_j31911607009304_1_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.NodeMlp.lean ====
/-
  The perceptron that every node's feature row passes through, and the host's spelling of it on a whole array.

  A node carries a row `x` of `H` features. The perceptron is two dense layers with a clamp at zero between them:
  first `h k = max (sum over j of x j * w1 j k + b1 k) 0`, then `y c = sum over k of h k * w2 k c + b2 c`, all on the
  extended reals. `mlpOut` is `y`; `mlpAct` clamps `y` at zero once more. The zero is kept as the float word both
  programs clamp at, so its value is never needed.

  On an array `[B, H]` of `B` nodes the perceptron acts row by row: entry `(p, c)` of `layerOut z ..` is lane `c` of
  `mlpOut` of row `p` of `z`, and no other row of `z` enters it. A host program spells the same array as two
  contractions with the weight matrices, each followed by a flat bias laid down the rows, with a maximum against a
  broadcast zero after the first (and, for `layerAct`, after the second too). Read at an entry, each contraction plus
  bias is `denseRow` of the row, which is the whole proof. Nothing here mentions a program.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«143180_j31911607009304_1_alg».proof.Proof.LibDenseRow

noncomputable section

open scoped BigOperators

namespace Cert.NodeMlp

open Idealize.ShloMosaic Idealize.ShloMosaic.ValueIdx Cert.DenseRow

/-- The float word of zero, as the extended real it denotes. Both programs clamp at this same word. -/
abbrev zeroW : EReal := Ideal.ofBits .f32 0x00000000#32

variable {B H : Nat}

/-- The hidden row: the first dense layer, clamped at zero lane by lane. -/
def hidden (x : Fin H → EReal) (w1 : Fin H → Fin H → EReal) (b1 : Fin H → EReal) : Fin H → EReal :=
  fun k => max (denseRow x w1 b1 k) zeroW

/-- The perceptron's output row: the second dense layer of the hidden row. -/
def mlpOut (x : Fin H → EReal) (w1 : Fin H → Fin H → EReal) (b1 : Fin H → EReal)
    (w2 : Fin H → Fin H → EReal) (b2 : Fin H → EReal) : Fin H → EReal :=
  denseRow (hidden x w1 b1) w2 b2

/-- The perceptron's output row clamped at zero once more. -/
def mlpAct (x : Fin H → EReal) (w1 : Fin H → Fin H → EReal) (b1 : Fin H → EReal)
    (w2 : Fin H → Fin H → EReal) (b2 : Fin H → EReal) : Fin H → EReal :=
  fun c => max (mlpOut x w1 b1 w2 b2 c) zeroW

/-- The perceptron on an array of `B` nodes: entry `(p, c)` is lane `c` of the output row of row `p`. -/
def layerOut (z : (⟨2, ![B, H]⟩ : Shape).Idx → EReal) (W1 : (⟨2, ![H, H]⟩ : Shape).Idx → EReal) (b1 : Fin H → EReal)
    (W2 : (⟨2, ![H, H]⟩ : Shape).Idx → EReal) (b2 : Fin H → EReal) : (⟨2, ![B, H]⟩ : Shape).Idx → EReal :=
  fun i => mlpOut (fun j => z (ix2 (i 0) j)) (fun j k => W1 (ix2 j k)) b1 (fun k c => W2 (ix2 k c)) b2 (i 1)

/-- The same with the last clamp. -/
def layerAct (z : (⟨2, ![B, H]⟩ : Shape).Idx → EReal) (W1 : (⟨2, ![H, H]⟩ : Shape).Idx → EReal) (b1 : Fin H → EReal)
    (W2 : (⟨2, ![H, H]⟩ : Shape).Idx → EReal) (b2 : Fin H → EReal) : (⟨2, ![B, H]⟩ : Shape).Idx → EReal :=
  fun i => mlpAct (fun j => z (ix2 (i 0) j)) (fun j k => W1 (ix2 j k)) b1 (fun k c => W2 (ix2 k c)) b2 (i 1)

theorem layerOut_apply (z : (⟨2, ![B, H]⟩ : Shape).Idx → EReal) (W1 : (⟨2, ![H, H]⟩ : Shape).Idx → EReal)
    (b1 : Fin H → EReal) (W2 : (⟨2, ![H, H]⟩ : Shape).Idx → EReal) (b2 : Fin H → EReal) (p : Fin B) (c : Fin H) :
    layerOut z W1 b1 W2 b2 (ix2 p c)
      = mlpOut (fun j => z (ix2 p j)) (fun j k => W1 (ix2 j k)) b1 (fun k c => W2 (ix2 k c)) b2 c := rfl

theorem layerAct_apply (z : (⟨2, ![B, H]⟩ : Shape).Idx → EReal) (W1 : (⟨2, ![H, H]⟩ : Shape).Idx → EReal)
    (b1 : Fin H → EReal) (W2 : (⟨2, ![H, H]⟩ : Shape).Idx → EReal) (b2 : Fin H → EReal) (p : Fin B) (c : Fin H) :
    layerAct z W1 b1 W2 b2 (ix2 p c)
      = mlpAct (fun j => z (ix2 p j)) (fun j k => W1 (ix2 j k)) b1 (fun k c => W2 (ix2 k c)) b2 c := rfl

/-- The clamped layer is the unclamped one with a maximum against zero at every entry. -/
theorem layerAct_eq_max (z : (⟨2, ![B, H]⟩ : Shape).Idx → EReal) (W1 : (⟨2, ![H, H]⟩ : Shape).Idx → EReal)
    (b1 : Fin H → EReal) (W2 : (⟨2, ![H, H]⟩ : Shape).Idx → EReal) (b2 : Fin H → EReal) (i : (⟨2, ![B, H]⟩ : Shape).Idx) :
    layerAct z W1 b1 W2 b2 i = max (layerOut z W1 b1 W2 b2 i) zeroW := rfl

/-! ## The host's spelling -/

/-- The host's first half at an entry: a contraction with the first weights, the flat bias laid down the rows, and a
    maximum against a broadcast zero, is the hidden row's lane. -/
theorem hostHidden_apply (z : FVec Ideal (⟨2, ![B, H]⟩ : Shape) .f32) (W1 : FVec Ideal (⟨2, ![H, H]⟩ : Shape) .f32)
    (b1 : FVec Ideal (⟨1, ![H]⟩ : Shape) .f32)
    (h0 : (⟨0, ![]⟩ : Shape).BroadcastsInDim (⟨2, ![B, H]⟩ : Shape) ![])
    (h1 : (⟨1, ![H]⟩ : Shape).BroadcastsInDim (⟨2, ![1, H]⟩ : Shape) ![1])
    (h2 : (⟨2, ![1, H]⟩ : Shape).BroadcastsInDim (⟨2, ![B, H]⟩ : Shape) ![0, 1]) (p : Fin B) (k : Fin H) :
    maximumf (addf (Host.dotGeneral (F := Ideal) (DotDims.plain B H H) none z W1)
          (broadcastInDim (⟨2, ![B, H]⟩ : Shape) ![0, 1] h2 (broadcastInDim (⟨2, ![1, H]⟩ : Shape) ![1] h1 b1)))
        (broadcastInDim (⟨2, ![B, H]⟩ : Shape) ![] h0 (constant (F := Ideal) (⟨0, ![]⟩ : Shape) .f32 0x00000000#32)) (ix2 p k)
      = hidden (fun j => z (ix2 p j)) (fun j k => W1 (ix2 j k)) (fun k => b1 (ix1 k)) k := by
  rw [maximumf_apply, hostDensePlain_apply none z W1 b1 h1 h2 p k, broadcastInDim_scalar_apply]
  rfl

/-- The host's two contractions, biases and the clamp between them are the perceptron on the whole array. -/
theorem hostLayerOut_eq (z : FVec Ideal (⟨2, ![B, H]⟩ : Shape) .f32) (W1 W2 : FVec Ideal (⟨2, ![H, H]⟩ : Shape) .f32)
    (b1 b2 : FVec Ideal (⟨1, ![H]⟩ : Shape) .f32)
    (h0 : (⟨0, ![]⟩ : Shape).BroadcastsInDim (⟨2, ![B, H]⟩ : Shape) ![])
    (h1 : (⟨1, ![H]⟩ : Shape).BroadcastsInDim (⟨2, ![1, H]⟩ : Shape) ![1])
    (h2 : (⟨2, ![1, H]⟩ : Shape).BroadcastsInDim (⟨2, ![B, H]⟩ : Shape) ![0, 1]) :
    addf (Host.dotGeneral (F := Ideal) (DotDims.plain B H H) none
          (maximumf (addf (Host.dotGeneral (F := Ideal) (DotDims.plain B H H) none z W1)
              (broadcastInDim (⟨2, ![B, H]⟩ : Shape) ![0, 1] h2 (broadcastInDim (⟨2, ![1, H]⟩ : Shape) ![1] h1 b1)))
            (broadcastInDim (⟨2, ![B, H]⟩ : Shape) ![] h0 (constant (F := Ideal) (⟨0, ![]⟩ : Shape) .f32 0x00000000#32)))
          W2)
        (broadcastInDim (⟨2, ![B, H]⟩ : Shape) ![0, 1] h2 (broadcastInDim (⟨2, ![1, H]⟩ : Shape) ![1] h1 b2))
      = layerOut z W1 (fun k => b1 (ix1 k)) W2 (fun k => b2 (ix1 k)) := by
  funext i
  obtain ⟨p, c, rfl⟩ : ∃ (p : Fin B) (c : Fin H), i = ix2 p c := ⟨i 0, i 1, eq_ix2 i⟩
  rw [hostDensePlain_apply none _ W2 b2 h1 h2 p c, layerOut_apply]
  unfold mlpOut
  refine congrArg (fun f => denseRow f (fun k c => W2 (ix2 k c)) (fun c => b2 (ix1 c)) c) (funext fun k => ?_)
  exact hostHidden_apply z W1 b1 h0 h1 h2 p k

/-- With the host's last maximum against a broadcast zero, the clamped perceptron. -/
theorem hostLayerAct_eq (z : FVec Ideal (⟨2, ![B, H]⟩ : Shape) .f32) (W1 W2 : FVec Ideal (⟨2, ![H, H]⟩ : Shape) .f32)
    (b1 b2 : FVec Ideal (⟨1, ![H]⟩ : Shape) .f32)
    (h0 : (⟨0, ![]⟩ : Shape).BroadcastsInDim (⟨2, ![B, H]⟩ : Shape) ![])
    (h1 : (⟨1, ![H]⟩ : Shape).BroadcastsInDim (⟨2, ![1, H]⟩ : Shape) ![1])
    (h2 : (⟨2, ![1, H]⟩ : Shape).BroadcastsInDim (⟨2, ![B, H]⟩ : Shape) ![0, 1]) :
    maximumf (addf (Host.dotGeneral (F := Ideal) (DotDims.plain B H H) none
          (maximumf (addf (Host.dotGeneral (F := Ideal) (DotDims.plain B H H) none z W1)
              (broadcastInDim (⟨2, ![B, H]⟩ : Shape) ![0, 1] h2 (broadcastInDim (⟨2, ![1, H]⟩ : Shape) ![1] h1 b1)))
            (broadcastInDim (⟨2, ![B, H]⟩ : Shape) ![] h0 (constant (F := Ideal) (⟨0, ![]⟩ : Shape) .f32 0x00000000#32)))
          W2)
        (broadcastInDim (⟨2, ![B, H]⟩ : Shape) ![0, 1] h2 (broadcastInDim (⟨2, ![1, H]⟩ : Shape) ![1] h1 b2)))
      (broadcastInDim (⟨2, ![B, H]⟩ : Shape) ![] h0 (constant (F := Ideal) (⟨0, ![]⟩ : Shape) .f32 0x00000000#32))
      = layerAct z W1 (fun k => b1 (ix1 k)) W2 (fun k => b2 (ix1 k)) := by
  funext i
  rw [maximumf_apply, hostLayerOut_eq z W1 W2 b1 b2 h0 h1 h2, broadcastInDim_scalar_apply, layerAct_eq_max]
  rfl

end Cert.NodeMlp

end
-- ==== Proof.Forward.lean ====
/-
  The network's result as one function of its arguments.

  Three rounds: every node adds its incoming neighbours' rows to its own (`aggregate`) and passes the sum through the
  shared perceptron, clamped at zero after the first two rounds and not after the third; then the node rows are averaged
  per graph and passed through the linear head (`poolHead`). Both programs are shown to end with this array in their
  result buffers, so they end with equal results.
-/
import proofs.«143180_j31911607009304_1_alg».proof.Proof.HostParts
import proofs.«143180_j31911607009304_1_alg».proof.Proof.NodeMlp

noncomputable section

namespace Cert.Forward

open Cert.KernelIdeal Cert.HostParts Cert.NodeMlp Idealize.ShloMosaic Idealize.ShloMosaic.ValueIdx

/-- A flat bias vector read by lane. -/
abbrev lanes (b : FVec Ideal S128 .f32) : Fin 128 → EReal := fun k => b (ix1 k)

/-- One round with the clamp: aggregate, then the clamped perceptron on every row. -/
def roundAct (h : FVec Ideal S50000x128 .f32) (e : IVec S2x800000 32)
    (W1 : FVec Ideal S128x128 .f32) (b1 : FVec Ideal S128 .f32)
    (W2 : FVec Ideal S128x128 .f32) (b2 : FVec Ideal S128 .f32) :
    FVec Ideal S50000x128 .f32 :=
  layerAct (B := 50000) (H := 128) (aggregate h e) W1 (lanes b1) W2 (lanes b2)

/-- One round without the last clamp. -/
def roundOut (h : FVec Ideal S50000x128 .f32) (e : IVec S2x800000 32)
    (W1 : FVec Ideal S128x128 .f32) (b1 : FVec Ideal S128 .f32)
    (W2 : FVec Ideal S128x128 .f32) (b2 : FVec Ideal S128 .f32) :
    FVec Ideal S50000x128 .f32 :=
  layerOut (B := 50000) (H := 128) (aggregate h e) W1 (lanes b1) W2 (lanes b2)

/-- The whole network. -/
def forward (x : FVec Ideal S50000x128 .f32) (e : IVec S2x800000 32)
    (batch : IVec S50000 32)
    (W1 : FVec Ideal S128x128 .f32) (b1 : FVec Ideal S128 .f32)
    (W2 : FVec Ideal S128x128 .f32) (b2 : FVec Ideal S128 .f32)
    (Wl : FVec Ideal S128x10 .f32) (bl : FVec Ideal S10 .f32) :
    FVec Ideal S256x10 .f32 :=
  poolHead (roundOut (roundAct (roundAct x e W1 b1 W2 b2) e W1 b1 W2 b2) e W1 b1 W2 b2) batch Wl bl

end Cert.Forward

end
-- ==== Proof.Call0.lean ====
/-
  The first call of the perceptron kernel: the array it leaves, as one function of the arrays it is entered with.

  The call walks ten grid points. Point `t` is handed rows `5000 t … 5000 t + 4999` of the node array and the whole of
  both weight matrices and both bias rows; its body multiplies the block by the first weights in the matrix unit, adds
  the first bias row down the rows, clamps at zero, multiplies by the second weights, adds the second bias row, clamps at
  zero again and stores the block, which is written back to rows `5000 t …` of the output array.

  Entry `(r, c)` of a stored block depends on row `r` of the point's node block only, and that row is row
  `5000 t + r` of the node array: so every written block is a block of ONE array, `layerAct` of the entry arrays. The ten
  blocks tile the output array (the point covering row `r` is `r / 5000`), so after the call the output array is that
  function everywhere. The entry contents `V` are a parameter: the run supplies them.
-/
import proofs.«143180_j31911607009304_1_alg».proof.Proof.Gen.KernelIdeal.Frame
import proofs.«143180_j31911607009304_1_alg».proof.Proof.NodeMlp
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call0

open Cert.KernelIdeal Cert.KernelIdeal.Gen Cert.NodeMlp Cert.DenseRow

variable (V : (c : Dev nD) → (b : Ref sig .tc) → Buf (Elt Ideal) ((c : Thread nD τ).loc b))

theorem hz : (![0, 0] : Fin 2 → Nat) = fun _ => 0 := funext fun a => by fin_cases a <;> rfl

/-- The printed product contracts the left operand's lanes with the right operand's rows: the plain product. -/
theorem dot_plain : dot_S5000x128_S128x128_S5000x128_1_0_0_1_n_n = DotDims.plain 5000 128 128 := rfl

/-- The body's stored value at entry `(p, q)` of the block: lane `q` of the perceptron of the block's row `p`. The
    roundings to the narrower float format on the way into the matrix unit are the identity on extended reals. -/
theorem pay_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k0_pay1 x0 x1 x2 x3 x4 (ix2 p q)
      = mlpAct (fun j => x0 (ix2 p j)) (fun j k => x1 (ix2 j k)) (fun k => x2 (ix2 (0 : Fin 1) k))
          (fun k c => x3 (ix2 k c)) (fun c => x4 (ix2 (0 : Fin 1) c)) q := by
  unfold k0_pay1
  simp only [shapeCast_self]
  rw [maximumf_apply, dot_plain, kernelDensePlain_apply none _ _ x4 _ p q]
  unfold mlpAct mlpOut
  refine congrArg₂ max (congrArg (fun f => denseRow f (fun k c => x3 (ix2 k c)) (fun c => x4 (ix2 (0 : Fin 1) c)) q)
    (funext fun k => ?_)) rfl
  rw [truncf_apply, maximumf_apply, kernelDensePlain_apply none _ _ x2 _ p k]
  rfl

/-- The same against a whole node array `z`: when row `y 0` of the block is row `i 0` of `z` and the lanes agree, the
    stored value at `y` is the layer of `z` at `i`. -/
theorem pay_row (x0 : Vec Ideal S5000x128 .f32) (x1 : Vec Ideal S128x128 .f32) (x2 : Vec Ideal S1x128 .f32)
    (x3 : Vec Ideal S128x128 .f32) (x4 : Vec Ideal S1x128 .f32) (z : S50000x128.Idx → EReal)
    (y : S5000x128.Idx) (i : S50000x128.Idx)
    (hrow : ∀ j : Fin 128, x0 (ix2 (y 0) j) = z (ix2 (i 0) j)) (hq : (y 1).val = (i 1).val) :
    k0_pay1 x0 x1 x2 x3 x4 y
      = layerAct z x1 (fun k => x2 (ix2 (0 : Fin 1) k)) x3 (fun c => x4 (ix2 (0 : Fin 1) c)) i := by
  obtain ⟨p, q, rfl⟩ : ∃ (p : Fin 5000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  obtain rfl : q = q' := Fin.ext hq
  rw [pay_apply, layerAct_apply]
  exact congrArg (fun f => mlpAct f (fun j k => x1 (ix2 j k)) (fun k => x2 (ix2 (0 : Fin 1) k))
    (fun k c => x3 (ix2 k c)) (fun c => x4 (ix2 (0 : Fin 1) c)) q) (funext hrow)

/-- The printed index maps over the grid: the node window and the output window are at block `(t, 0)`, the four
    parameter windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node window's block at point `t` is rows `5000 t …` of the node array. -/
theorem iblk_nodes (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c main_v14 : S50000x128.Idx → EReal) k := by
  obtain ⟨e0, e1, -⟩ := idx_facts t
  unfold iblk0
  rw [View.read_apply]
  show V c main_v14 _ = V c main_v14 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- A parameter window's one block is its whole array. -/
theorem iblk_w1 (c : Dev nD) (t : Fin cfg0.N) :
    (iblk0 V c 1 t : Vec Ideal S128x128 .f32) = (V c main_arg3 : S128x128.Idx → EReal) := by
  obtain ⟨-, -, e0, e1, -⟩ := idx_facts t
  funext y
  unfold iblk0
  rw [View.read_apply]
  show V c main_arg3 _ = V c main_arg3 y
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

theorem iblk_w2 (c : Dev nD) (t : Fin cfg0.N) :
    (iblk0 V c 2 t : Vec Ideal S1x128 .f32) = (V c main_v15 : S1x128.Idx → EReal) := by
  obtain ⟨-, -, -, -, e0, e1, -⟩ := idx_facts t
  funext y
  unfold iblk0
  rw [View.read_apply]
  show V c main_v15 _ = V c main_v15 y
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

theorem iblk_w3 (c : Dev nD) (t : Fin cfg0.N) :
    (iblk0 V c 3 t : Vec Ideal S128x128 .f32) = (V c main_arg5 : S128x128.Idx → EReal) := by
  obtain ⟨-, -, -, -, -, -, e0, e1, -⟩ := idx_facts t
  funext y
  unfold iblk0
  rw [View.read_apply]
  show V c main_arg5 _ = V c main_arg5 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem iblk_w4 (c : Dev nD) (t : Fin cfg0.N) :
    (iblk0 V c 4 t : Vec Ideal S1x128 .f32) = (V c main_v16 : S1x128.Idx → EReal) := by
  obtain ⟨-, -, -, -, -, -, -, -, e0, e1, -⟩ := idx_facts t
  funext y
  unfold iblk0
  rw [View.read_apply]
  show V c main_v16 _ = V c main_v16 y
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The array the call leaves: the perceptron of every row of the node array it was entered with. -/
abbrev outArr (c : Dev nD) : S50000x128.Idx → EReal :=
  layerAct (V c main_v14 : S50000x128.Idx → EReal) (V c main_arg3 : S128x128.Idx → EReal)
    (fun k => (V c main_v15 : S1x128.Idx → EReal) (ix2 (0 : Fin 1) k)) (V c main_arg5 : S128x128.Idx → EReal)
    (fun k => (V c main_v16 : S1x128.Idx → EReal) (ix2 (0 : Fin 1) k))

/-- What point `t` writes back is block `t` of that array. -/
theorem flushed_eq (c : Dev nD) (t : Fin cfg0.N) :
    (dat0 V c).flushed 5 t = ((cfg0.win 5).blk t).view.read (Elt Ideal) (outArr V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [iblk_w1 V c t, iblk_w2 V c t, iblk_w3 V c t, iblk_w4 V c t]
  obtain ⟨-, -, -, -, -, -, -, -, -, -, e0, e1⟩ := idx_facts t
  funext y
  refine pay_row _ _ _ _ _ (V c main_v14) y (((cfg0.win 5).blk t).view.emb y) (fun j => ?_) ?_
  · refine iblk_nodes V c t _ _ ?_ rfl
    show win0_5.index t 0 * 5000 + 1 * (y 0).val = 5000 * t.val + (y 0).val
    rw [e0]; omega
  · show (y 1).val = win0_5.index t 1 * 128 + 1 * (y 1).val
    rw [e1]; omega

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- Every index of the output array is in the block of the point its row falls under. -/
theorem cover (i : S50000x128.Idx) : ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- After the call the output array is the perceptron of every row of the node array. -/
theorem out_eq (c : Dev nD) : (dat0 V c).arrAt 5 cfg0.N = outArr V c :=
  (dat0 V c).arrAt_eq_of_cover 5 (outArr V c) (fun t _ => flushed_eq V c t) (cover)

end Cert.KernelIdeal.Call0

end
-- ==== Proof.Call1.lean ====
/-
  The second call of the perceptron kernel: the array it leaves, as one function of the arrays it is entered with.

  The call walks ten grid points. Point `t` is handed rows `5000 t … 5000 t + 4999` of the node array and the whole of
  both weight matrices and both bias rows; its body multiplies the block by the first weights in the matrix unit, adds
  the first bias row down the rows, clamps at zero, multiplies by the second weights, adds the second bias row, clamps at
  zero again and stores the block, which is written back to rows `5000 t …` of the output array.

  Entry `(r, c)` of a stored block depends on row `r` of the point's node block only, and that row is row
  `5000 t + r` of the node array: so every written block is a block of ONE array, `layerAct` of the entry arrays. The ten
  blocks tile the output array (the point covering row `r` is `r / 5000`), so after the call the output array is that
  function everywhere. The entry contents `V` are a parameter: the run supplies them.
-/
import proofs.«143180_j31911607009304_1_alg».proof.Proof.Gen.KernelIdeal.Frame
import proofs.«143180_j31911607009304_1_alg».proof.Proof.NodeMlp
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call1

open Cert.KernelIdeal Cert.KernelIdeal.Gen Cert.NodeMlp Cert.DenseRow

variable (V : (c : Dev nD) → (b : Ref sig .tc) → Buf (Elt Ideal) ((c : Thread nD τ).loc b))

theorem hz : (![0, 0] : Fin 2 → Nat) = fun _ => 0 := funext fun a => by fin_cases a <;> rfl

/-- The printed product contracts the left operand's lanes with the right operand's rows: the plain product. -/
theorem dot_plain : dot_S5000x128_S128x128_S5000x128_1_0_0_1_n_n = DotDims.plain 5000 128 128 := rfl

/-- The body's stored value at entry `(p, q)` of the block: lane `q` of the perceptron of the block's row `p`. The
    roundings to the narrower float format on the way into the matrix unit are the identity on extended reals. -/
theorem pay_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k1_pay1 x0 x1 x2 x3 x4 (ix2 p q)
      = mlpAct (fun j => x0 (ix2 p j)) (fun j k => x1 (ix2 j k)) (fun k => x2 (ix2 (0 : Fin 1) k))
          (fun k c => x3 (ix2 k c)) (fun c => x4 (ix2 (0 : Fin 1) c)) q := by
  unfold k1_pay1
  simp only [shapeCast_self]
  rw [maximumf_apply, dot_plain, kernelDensePlain_apply none _ _ x4 _ p q]
  unfold mlpAct mlpOut
  refine congrArg₂ max (congrArg (fun f => denseRow f (fun k c => x3 (ix2 k c)) (fun c => x4 (ix2 (0 : Fin 1) c)) q)
    (funext fun k => ?_)) rfl
  rw [truncf_apply, maximumf_apply, kernelDensePlain_apply none _ _ x2 _ p k]
  rfl

/-- The same against a whole node array `z`: when row `y 0` of the block is row `i 0` of `z` and the lanes agree, the
    stored value at `y` is the layer of `z` at `i`. -/
theorem pay_row (x0 : Vec Ideal S5000x128 .f32) (x1 : Vec Ideal S128x128 .f32) (x2 : Vec Ideal S1x128 .f32)
    (x3 : Vec Ideal S128x128 .f32) (x4 : Vec Ideal S1x128 .f32) (z : S50000x128.Idx → EReal)
    (y : S5000x128.Idx) (i : S50000x128.Idx)
    (hrow : ∀ j : Fin 128, x0 (ix2 (y 0) j) = z (ix2 (i 0) j)) (hq : (y 1).val = (i 1).val) :
    k1_pay1 x0 x1 x2 x3 x4 y
      = layerAct z x1 (fun k => x2 (ix2 (0 : Fin 1) k)) x3 (fun c => x4 (ix2 (0 : Fin 1) c)) i := by
  obtain ⟨p, q, rfl⟩ : ∃ (p : Fin 5000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  obtain rfl : q = q' := Fin.ext hq
  rw [pay_apply, layerAct_apply]
  exact congrArg (fun f => mlpAct f (fun j k => x1 (ix2 j k)) (fun k => x2 (ix2 (0 : Fin 1) k))
    (fun k c => x3 (ix2 k c)) (fun c => x4 (ix2 (0 : Fin 1) c)) q) (funext hrow)

/-- The printed index maps over the grid: the node window and the output window are at block `(t, 0)`, the four
    parameter windows at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The node window's block at point `t` is rows `5000 t …` of the node array. -/
theorem iblk_nodes (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c main_v28 : S50000x128.Idx → EReal) k := by
  obtain ⟨e0, e1, -⟩ := idx_facts t
  unfold iblk1
  rw [View.read_apply]
  show V c main_v28 _ = V c main_v28 _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- A parameter window's one block is its whole array. -/
theorem iblk_w1 (c : Dev nD) (t : Fin cfg1.N) :
    (iblk1 V c 1 t : Vec Ideal S128x128 .f32) = (V c main_arg3 : S128x128.Idx → EReal) := by
  obtain ⟨-, -, e0, e1, -⟩ := idx_facts t
  funext y
  unfold iblk1
  rw [View.read_apply]
  show V c main_arg3 _ = V c main_arg3 y
  congr 1
  funext a
  apply Fin.ext
  match a with
  | ⟨0, _⟩ => show win1_1.index t 0 * 128 + 1 * (y 0).val = (y 0).val; rw [e0]; omega
  | ⟨1, _⟩ => show win1_1.index t 1 * 128 + 1 * (y 1).val = (y 1).val; rw [e1]; omega

theorem iblk_w2 (c : Dev nD) (t : Fin cfg1.N) :
    (iblk1 V c 2 t : Vec Ideal S1x128 .f32) = (V c main_v29 : S1x128.Idx → EReal) := by
  obtain ⟨-, -, -, -, e0, e1, -⟩ := idx_facts t
  funext y
  unfold iblk1
  rw [View.read_apply]
  show V c main_v29 _ = V c main_v29 y
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

theorem iblk_w3 (c : Dev nD) (t : Fin cfg1.N) :
    (iblk1 V c 3 t : Vec Ideal S128x128 .f32) = (V c main_arg5 : S128x128.Idx → EReal) := by
  obtain ⟨-, -, -, -, -, -, e0, e1, -⟩ := idx_facts t
  funext y
  unfold iblk1
  rw [View.read_apply]
  show V c main_arg5 _ = V c main_arg5 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem iblk_w4 (c : Dev nD) (t : Fin cfg1.N) :
    (iblk1 V c 4 t : Vec Ideal S1x128 .f32) = (V c main_v30 : S1x128.Idx → EReal) := by
  obtain ⟨-, -, -, -, -, -, -, -, e0, e1, -⟩ := idx_facts t
  funext y
  unfold iblk1
  rw [View.read_apply]
  show V c main_v30 _ = V c main_v30 y
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The array the call leaves: the perceptron of every row of the node array it was entered with. -/
abbrev outArr (c : Dev nD) : S50000x128.Idx → EReal :=
  layerAct (V c main_v28 : S50000x128.Idx → EReal) (V c main_arg3 : S128x128.Idx → EReal)
    (fun k => (V c main_v29 : S1x128.Idx → EReal) (ix2 (0 : Fin 1) k)) (V c main_arg5 : S128x128.Idx → EReal)
    (fun k => (V c main_v30 : S1x128.Idx → EReal) (ix2 (0 : Fin 1) k))

/-- What point `t` writes back is block `t` of that array. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [iblk_w1 V c t, iblk_w2 V c t, iblk_w3 V c t, iblk_w4 V c t]
  obtain ⟨-, -, -, -, -, -, -, -, -, -, e0, e1⟩ := idx_facts t
  funext y
  refine pay_row _ _ _ _ _ (V c main_v28) y (((cfg1.win 5).blk t).view.emb y) (fun j => ?_) ?_
  · refine iblk_nodes V c t _ _ ?_ rfl
    show win1_5.index t 0 * 5000 + 1 * (y 0).val = 5000 * t.val + (y 0).val
    rw [e0]; omega
  · show (y 1).val = win1_5.index t 1 * 128 + 1 * (y 1).val
    rw [e1]; omega

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- Every index of the output array is in the block of the point its row falls under. -/
theorem cover (i : S50000x128.Idx) : ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- After the call the output array is the perceptron of every row of the node array. -/
theorem out_eq (c : Dev nD) : (dat1 V c).arrAt 5 cfg1.N = outArr V c :=
  (dat1 V c).arrAt_eq_of_cover 5 (outArr V c) (fun t _ => flushed_eq V c t) (cover)

end Cert.KernelIdeal.Call1

end
-- ==== Proof.Call2.lean ====
/-
  The third call of the perceptron kernel: the array it leaves, as one function of the arrays it is entered with.

  The call walks ten grid points. Point `t` is handed rows `5000 t … 5000 t + 4999` of the node array and the whole of
  both weight matrices and both bias rows; its body multiplies the block by the first weights in the matrix unit, adds
  the first bias row down the rows, clamps at zero, multiplies by the second weights, adds the second bias row and stores the block, which is written back to rows `5000 t …` of the output array.

  Entry `(r, c)` of a stored block depends on row `r` of the point's node block only, and that row is row
  `5000 t + r` of the node array: so every written block is a block of ONE array, `layerOut` of the entry arrays. The ten
  blocks tile the output array (the point covering row `r` is `r / 5000`), so after the call the output array is that
  function everywhere. The entry contents `V` are a parameter: the run supplies them.
-/
import proofs.«143180_j31911607009304_1_alg».proof.Proof.Gen.KernelIdeal.Frame
import proofs.«143180_j31911607009304_1_alg».proof.Proof.NodeMlp
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Call2

open Cert.KernelIdeal Cert.KernelIdeal.Gen Cert.NodeMlp Cert.DenseRow

variable (V : (c : Dev nD) → (b : Ref sig .tc) → Buf (Elt Ideal) ((c : Thread nD τ).loc b))

theorem hz : (![0, 0] : Fin 2 → Nat) = fun _ => 0 := funext fun a => by fin_cases a <;> rfl

/-- The printed product contracts the left operand's lanes with the right operand's rows: the plain product. -/
theorem dot_plain : dot_S5000x128_S128x128_S5000x128_1_0_0_1_n_n = DotDims.plain 5000 128 128 := rfl

/-- The body's stored value at entry `(p, q)` of the block: lane `q` of the perceptron of the block's row `p`. The
    roundings to the narrower float format on the way into the matrix unit are the identity on extended reals. -/
theorem pay_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k2_pay1 x0 x1 x2 x3 x4 (ix2 p q)
      = mlpOut (fun j => x0 (ix2 p j)) (fun j k => x1 (ix2 j k)) (fun k => x2 (ix2 (0 : Fin 1) k))
          (fun k c => x3 (ix2 k c)) (fun c => x4 (ix2 (0 : Fin 1) c)) q := by
  unfold k2_pay1
  simp only [shapeCast_self]
  rw [dot_plain, kernelDensePlain_apply none _ _ x4 _ p q]
  unfold mlpOut
  refine congrArg (fun f => denseRow f (fun k c => x3 (ix2 k c)) (fun c => x4 (ix2 (0 : Fin 1) c)) q)
    (funext fun k => ?_)
  rw [truncf_apply, maximumf_apply, kernelDensePlain_apply none _ _ x2 _ p k]
  rfl

/-- The same against a whole node array `z`: when row `y 0` of the block is row `i 0` of `z` and the lanes agree, the
    stored value at `y` is the layer of `z` at `i`. -/
theorem pay_row (x0 : Vec Ideal S5000x128 .f32) (x1 : Vec Ideal S128x128 .f32) (x2 : Vec Ideal S1x128 .f32)
    (x3 : Vec Ideal S128x128 .f32) (x4 : Vec Ideal S1x128 .f32) (z : S50000x128.Idx → EReal)
    (y : S5000x128.Idx) (i : S50000x128.Idx)
    (hrow : ∀ j : Fin 128, x0 (ix2 (y 0) j) = z (ix2 (i 0) j)) (hq : (y 1).val = (i 1).val) :
    k2_pay1 x0 x1 x2 x3 x4 y
      = layerOut z x1 (fun k => x2 (ix2 (0 : Fin 1) k)) x3 (fun c => x4 (ix2 (0 : Fin 1) c)) i := by
  obtain ⟨p, q, rfl⟩ : ∃ (p : Fin 5000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  obtain rfl : q = q' := Fin.ext hq
  rw [pay_apply, layerOut_apply]
  exact congrArg (fun f => mlpOut f (fun j k => x1 (ix2 j k)) (fun k => x2 (ix2 (0 : Fin 1) k))
    (fun k c => x3 (ix2 k c)) (fun c => x4 (ix2 (0 : Fin 1) c)) q) (funext hrow)

/-- The printed index maps over the grid: the node window and the output window are at block `(t, 0)`, the four
    parameter windows at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The node window's block at point `t` is rows `5000 t …` of the node array. -/
theorem iblk_nodes (c : Dev nD) (t : Fin cfg2.N) (y : S5000x128.Idx) (k : S50000x128.Idx)
    (hk0 : (k 0).val = 5000 * t.val + (y 0).val) (hk1 : (k 1).val = (y 1).val) :
    (iblk2 V c 0 t : Vec Ideal S5000x128 .f32) y = (V c main_v42 : S50000x128.Idx → EReal) k := by
  obtain ⟨e0, e1, -⟩ := idx_facts t
  unfold iblk2
  rw [View.read_apply]
  show V c main_v42 _ = V c main_v42 _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- A parameter window's one block is its whole array. -/
theorem iblk_w1 (c : Dev nD) (t : Fin cfg2.N) :
    (iblk2 V c 1 t : Vec Ideal S128x128 .f32) = (V c main_arg3 : S128x128.Idx → EReal) := by
  obtain ⟨-, -, e0, e1, -⟩ := idx_facts t
  funext y
  unfold iblk2
  rw [View.read_apply]
  show V c main_arg3 _ = V c main_arg3 y
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

theorem iblk_w2 (c : Dev nD) (t : Fin cfg2.N) :
    (iblk2 V c 2 t : Vec Ideal S1x128 .f32) = (V c main_v43 : S1x128.Idx → EReal) := by
  obtain ⟨-, -, -, -, e0, e1, -⟩ := idx_facts t
  funext y
  unfold iblk2
  rw [View.read_apply]
  show V c main_v43 _ = V c main_v43 y
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

theorem iblk_w3 (c : Dev nD) (t : Fin cfg2.N) :
    (iblk2 V c 3 t : Vec Ideal S128x128 .f32) = (V c main_arg5 : S128x128.Idx → EReal) := by
  obtain ⟨-, -, -, -, -, -, e0, e1, -⟩ := idx_facts t
  funext y
  unfold iblk2
  rw [View.read_apply]
  show V c main_arg5 _ = V c main_arg5 y
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

theorem iblk_w4 (c : Dev nD) (t : Fin cfg2.N) :
    (iblk2 V c 4 t : Vec Ideal S1x128 .f32) = (V c main_v44 : S1x128.Idx → EReal) := by
  obtain ⟨-, -, -, -, -, -, -, -, e0, e1, -⟩ := idx_facts t
  funext y
  unfold iblk2
  rw [View.read_apply]
  show V c main_v44 _ = V c main_v44 y
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- The array the call leaves: the perceptron of every row of the node array it was entered with. -/
abbrev outArr (c : Dev nD) : S50000x128.Idx → EReal :=
  layerOut (V c main_v42 : S50000x128.Idx → EReal) (V c main_arg3 : S128x128.Idx → EReal)
    (fun k => (V c main_v43 : S1x128.Idx → EReal) (ix2 (0 : Fin 1) k)) (V c main_arg5 : S128x128.Idx → EReal)
    (fun k => (V c main_v44 : S1x128.Idx → EReal) (ix2 (0 : Fin 1) k))

/-- What point `t` writes back is block `t` of that array. -/
theorem flushed_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [iblk_w1 V c t, iblk_w2 V c t, iblk_w3 V c t, iblk_w4 V c t]
  obtain ⟨-, -, -, -, -, -, -, -, -, -, e0, e1⟩ := idx_facts t
  funext y
  refine pay_row _ _ _ _ _ (V c main_v42) y (((cfg2.win 5).blk t).view.emb y) (fun j => ?_) ?_
  · refine iblk_nodes V c t _ _ ?_ rfl
    show win2_5.index t 0 * 5000 + 1 * (y 0).val = 5000 * t.val + (y 0).val
    rw [e0]; omega
  · show (y 1).val = win2_5.index t 1 * 128 + 1 * (y 1).val
    rw [e1]; omega

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v45).slice (win2_5.rect t)).set ↔ _
  rw [View.set_slice_whole, Rect.mem_set_unit]
  exact Iff.rfl

/-- Every index of the output array is in the block of the point its row falls under. -/
theorem cover (i : S50000x128.Idx) : ∃ t : Fin cfg2.N, (cfg2.win 5).flush t = true ∧ i ∈ ((cfg2.win 5).blk t).view.set := by
  have hN : cfg2.N = 10 := N_2
  have hi0 : (i 0).val < 50000 := (i 0).isLt
  have hi1 : (i 1).val < 128 := (i 1).isLt
  refine ⟨⟨(i 0).val / 5000, by rw [hN]; omega⟩, flush2_5 _, ?_⟩
  rw [mem_blk]
  obtain ⟨-, -, -, -, -, -, -, -, -, -, e0, e1⟩ := idx_facts ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- After the call the output array is the perceptron of every row of the node array. -/
theorem out_eq (c : Dev nD) : (dat2 V c).arrAt 5 cfg2.N = outArr V c :=
  (dat2 V c).arrAt_eq_of_cover 5 (outArr V c) (fun t _ => flushed_eq V c t) (cover)

end Cert.KernelIdeal.Call2

end
-- ==== Proof.KernelFold.lean ====
/-
  The idealized kernel's result, read back through the fold of its segments.

  The last boundary's contents at the result buffer are the pooling-and-head stretch applied to what the third call left;
  what a call leaves is the perceptron of every row of the node array it was entered with (`Call0`, `Call1`, `Call2`);
  the node array a call is entered with is the aggregation stretch applied to what the call before left (for the first
  call: to the argument). The edge rows are sliced out of the edge list once, by the first stretch, and read again by the
  later ones; the weights and biases are arguments. None of these buffers is written after it is first made, so each
  still holds at every later boundary what it held at the first (`Keeps`). Chaining the stages gives the result buffer as
  `forward` of the nine arguments.
-/
import proofs.«143180_j31911607009304_1_alg».proof.Proof.Gen.KernelIdeal.Frame
import proofs.«143180_j31911607009304_1_alg».proof.Proof.KernelRun
import proofs.«143180_j31911607009304_1_alg».proof.Proof.Forward
import proofs.«143180_j31911607009304_1_alg».proof.Proof.Call0
import proofs.«143180_j31911607009304_1_alg».proof.Proof.Call1
import proofs.«143180_j31911607009304_1_alg».proof.Proof.Call2
import proofs.«143180_j31911607009304_1_alg».proof.Proof.LibRowBias
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.StableHlo

namespace Cert.KernelIdeal.Fold

open Cert.KernelIdeal Cert.KernelIdeal.Gen Cert.KernelIdeal.Run Cert.HostParts Cert.NodeMlp Cert.Forward

variable (m : (ℓ : Loc nD τ sig) → Buf (Elt Ideal) ℓ) (ρ : Dev nD → PrngReg)

/-! ## What each host stretch computes, from any contents `W` -/

section Stretches

variable (W : Valuation τ sig (Elt Ideal))

theorem s0_src : after hostOps0 W (Proc.devRef .tc main_v1) = srcRaw (W (Proc.devRef .tc main_arg1)) := by
  after_results; rfl
theorem s0_dst : after hostOps0 W (Proc.devRef .tc main_v3) = dstRaw (W (Proc.devRef .tc main_arg1)) := by
  after_results; rfl
set_option maxHeartbeats 4000000 in
theorem s0_nodes : after hostOps0 W (Proc.devRef .tc main_v14)
    = aggregate (W (Proc.devRef .tc main_arg0)) (W (Proc.devRef .tc main_arg1)) := by
  after_results_simp <;> rfl
theorem s0_b1 : after hostOps0 W (Proc.devRef .tc main_v15)
    = shapeCast _ (W (Proc.devRef .tc main_arg4)) shapeCasts_S128_S1x128 := by
  after_results; rfl
theorem s0_b2 : after hostOps0 W (Proc.devRef .tc main_v16)
    = shapeCast _ (W (Proc.devRef .tc main_arg6)) shapeCasts_S128_S1x128 := by
  after_results; rfl

set_option maxHeartbeats 4000000 in
theorem s1_nodes : after hostOps1 W (Proc.devRef .tc main_v28)
    = aggregateAt (W (Proc.devRef .tc main_v17)) (W (Proc.devRef .tc main_v1)) (W (Proc.devRef .tc main_v3)) := by
  after_results_simp <;> rfl
theorem s1_b1 : after hostOps1 W (Proc.devRef .tc main_v29)
    = shapeCast _ (W (Proc.devRef .tc main_arg4)) shapeCasts_S128_S1x128 := by
  after_results; rfl
theorem s1_b2 : after hostOps1 W (Proc.devRef .tc main_v30)
    = shapeCast _ (W (Proc.devRef .tc main_arg6)) shapeCasts_S128_S1x128 := by
  after_results; rfl

set_option maxHeartbeats 4000000 in
theorem s2_nodes : after hostOps2 W (Proc.devRef .tc main_v42)
    = aggregateAt (W (Proc.devRef .tc main_v31)) (W (Proc.devRef .tc main_v1)) (W (Proc.devRef .tc main_v3)) := by
  after_results_simp <;> rfl
theorem s2_b1 : after hostOps2 W (Proc.devRef .tc main_v43)
    = shapeCast _ (W (Proc.devRef .tc main_arg4)) shapeCasts_S128_S1x128 := by
  after_results; rfl
theorem s2_b2 : after hostOps2 W (Proc.devRef .tc main_v44)
    = shapeCast _ (W (Proc.devRef .tc main_arg6)) shapeCasts_S128_S1x128 := by
  after_results; rfl

set_option maxHeartbeats 4000000 in
theorem s3_result : after hostOps3 W (Proc.devRef .tc main_v61)
    = poolHead (W (Proc.devRef .tc main_v45)) (W (Proc.devRef .tc main_arg2)) (W (Proc.devRef .tc main_arg7))
        (W (Proc.devRef .tc main_arg8)) := by
  after_results_simp <;> rfl

end Stretches

/-! ## The buffers that are made once and only read afterwards -/

/-- At contents `W`: the two edge rows are the slices of the launched edge list, and the arguments other than the node
    features are as launched. -/
structure Keeps (c : Dev nD) (W : Valuation τ sig (Elt Ideal)) : Prop where
  src : W (Proc.devRef .tc main_v1) = srcRaw (m ((c : Thread nD τ).loc main_arg1))
  dst : W (Proc.devRef .tc main_v3) = dstRaw (m ((c : Thread nD τ).loc main_arg1))
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)

theorem keeps1 (c : Dev nD) : Keeps m c (W1 m ρ c) where
  src := (s0_src (W0 m ρ c)).trans rfl
  dst := (s0_dst (W0 m ρ c)).trans rfl
  a2 := by show after hostOps0 (W0 m ρ c) (Proc.devRef .tc main_arg2) = _; after_results
  a3 := by show after hostOps0 (W0 m ρ c) (Proc.devRef .tc main_arg3) = _; after_results
  a4 := by show after hostOps0 (W0 m ρ c) (Proc.devRef .tc main_arg4) = _; after_results
  a5 := by show after hostOps0 (W0 m ρ c) (Proc.devRef .tc main_arg5) = _; after_results
  a6 := by show after hostOps0 (W0 m ρ c) (Proc.devRef .tc main_arg6) = _; after_results
  a7 := by show after hostOps0 (W0 m ρ c) (Proc.devRef .tc main_arg7) = _; after_results
  a8 := by show after hostOps0 (W0 m ρ c) (Proc.devRef .tc main_arg8) = _; after_results

/-- The second aggregation stretch writes none of them. -/
theorem keeps_s1 (c : Dev nD) (W : Valuation τ sig (Elt Ideal)) (h : Keeps m c W) : Keeps m c (after hostOps1 W) where
  src := by refine Eq.trans ?_ h.src; after_results
  dst := by refine Eq.trans ?_ h.dst; after_results
  a2 := by refine Eq.trans ?_ h.a2; after_results
  a3 := by refine Eq.trans ?_ h.a3; after_results
  a4 := by refine Eq.trans ?_ h.a4; after_results
  a5 := by refine Eq.trans ?_ h.a5; after_results
  a6 := by refine Eq.trans ?_ h.a6; after_results
  a7 := by refine Eq.trans ?_ h.a7; after_results
  a8 := by refine Eq.trans ?_ h.a8; after_results

/-- The third aggregation stretch writes none of them. -/
theorem keeps_s2 (c : Dev nD) (W : Valuation τ sig (Elt Ideal)) (h : Keeps m c W) : Keeps m c (after hostOps2 W) where
  src := by refine Eq.trans ?_ h.src; after_results
  dst := by refine Eq.trans ?_ h.dst; after_results
  a2 := by refine Eq.trans ?_ h.a2; after_results
  a3 := by refine Eq.trans ?_ h.a3; after_results
  a4 := by refine Eq.trans ?_ h.a4; after_results
  a5 := by refine Eq.trans ?_ h.a5; after_results
  a6 := by refine Eq.trans ?_ h.a6; after_results
  a7 := by refine Eq.trans ?_ h.a7; after_results
  a8 := by refine Eq.trans ?_ h.a8; after_results

/-- A call writes its output array only; its weight matrices it reads through input windows, whose arrays end as
    entered. -/
theorem keeps2 (c : Dev nD) (h : Keeps m c (W1 m ρ c)) : Keeps m c (W2 m ρ c) where
  src := (W2_of_ne m ρ c main_v1 (by decide)).trans h.src
  dst := (W2_of_ne m ρ c main_v3 (by decide)).trans h.dst
  a2 := (W2_of_ne m ρ c main_arg2 (by decide)).trans h.a2
  a3 := ((W2_arr m ρ c 1).trans (((dat0 (V1 m ρ) c).arrAt_in 1 rfl _).trans (A_eq0 (V1 m ρ) c 1))).trans h.a3
  a4 := (W2_of_ne m ρ c main_arg4 (by decide)).trans h.a4
  a5 := ((W2_arr m ρ c 3).trans (((dat0 (V1 m ρ) c).arrAt_in 3 rfl _).trans (A_eq0 (V1 m ρ) c 3))).trans h.a5
  a6 := (W2_of_ne m ρ c main_arg6 (by decide)).trans h.a6
  a7 := (W2_of_ne m ρ c main_arg7 (by decide)).trans h.a7
  a8 := (W2_of_ne m ρ c main_arg8 (by decide)).trans h.a8

/-- A call writes its output array only. -/
theorem keeps4 (c : Dev nD) (h : Keeps m c (W3 m ρ c)) : Keeps m c (W4 m ρ c) where
  src := (W4_of_ne m ρ c main_v1 (by decide)).trans h.src
  dst := (W4_of_ne m ρ c main_v3 (by decide)).trans h.dst
  a2 := (W4_of_ne m ρ c main_arg2 (by decide)).trans h.a2
  a3 := ((W4_arr m ρ c 1).trans (((dat1 (V3 m ρ) c).arrAt_in 1 rfl _).trans (A_eq1 (V3 m ρ) c 1))).trans h.a3
  a4 := (W4_of_ne m ρ c main_arg4 (by decide)).trans h.a4
  a5 := ((W4_arr m ρ c 3).trans (((dat1 (V3 m ρ) c).arrAt_in 3 rfl _).trans (A_eq1 (V3 m ρ) c 3))).trans h.a5
  a6 := (W4_of_ne m ρ c main_arg6 (by decide)).trans h.a6
  a7 := (W4_of_ne m ρ c main_arg7 (by decide)).trans h.a7
  a8 := (W4_of_ne m ρ c main_arg8 (by decide)).trans h.a8

/-- A call writes its output array only. -/
theorem keeps6 (c : Dev nD) (h : Keeps m c (W5 m ρ c)) : Keeps m c (W6 m ρ c) where
  src := (W6_of_ne m ρ c main_v1 (by decide)).trans h.src
  dst := (W6_of_ne m ρ c main_v3 (by decide)).trans h.dst
  a2 := (W6_of_ne m ρ c main_arg2 (by decide)).trans h.a2
  a3 := ((W6_arr m ρ c 1).trans (((dat2 (V5 m ρ) c).arrAt_in 1 rfl _).trans (A_eq2 (V5 m ρ) c 1))).trans h.a3
  a4 := (W6_of_ne m ρ c main_arg4 (by decide)).trans h.a4
  a5 := ((W6_arr m ρ c 3).trans (((dat2 (V5 m ρ) c).arrAt_in 3 rfl _).trans (A_eq2 (V5 m ρ) c 3))).trans h.a5
  a6 := (W6_of_ne m ρ c main_arg6 (by decide)).trans h.a6
  a7 := (W6_of_ne m ρ c main_arg7 (by decide)).trans h.a7
  a8 := (W6_of_ne m ρ c main_arg8 (by decide)).trans h.a8

theorem keeps3 (c : Dev nD) : Keeps m c (W3 m ρ c) := keeps_s1 m c _ (keeps2 m ρ c (keeps1 m ρ c))
theorem keeps5 (c : Dev nD) : Keeps m c (W5 m ρ c) := keeps_s2 m c _ (keeps4 m ρ c (keeps3 m ρ c))

/-! ## The node array after each call -/

/-- A bias kept as one row, read at a lane, is the flat bias at that lane. -/
theorem biasRow (b : FVec Ideal S128 .f32) :
    (fun k : Fin 128 => (shapeCast S1x128 b shapeCasts_S128_S1x128 : S1x128.Idx → EReal) (ix2 (0 : Fin 1) k)) = lanes b :=
  funext fun k => Cert.RowBias.castRow_apply b shapeCasts_S128_S1x128 k

/-- After the first call its output array is the first round of the argument. -/
theorem h1_eq (c : Dev nD) : W2 m ρ c (Proc.devRef .tc main_v17)
    = roundAct (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine ((W2_arr m ρ c 5).trans (Call0.out_eq (V1 m ρ) c)).trans ?_
  have k := keeps1 m ρ c
  show layerAct (W1 m ρ c (Proc.devRef .tc main_v14)) (W1 m ρ c (Proc.devRef .tc main_arg3))
      (fun k => (W1 m ρ c (Proc.devRef .tc main_v15) : S1x128.Idx → EReal) (ix2 (0 : Fin 1) k))
      (W1 m ρ c (Proc.devRef .tc main_arg5))
      (fun k => (W1 m ρ c (Proc.devRef .tc main_v16) : S1x128.Idx → EReal) (ix2 (0 : Fin 1) k)) = _
  rw [k.a3, k.a5, show W1 m ρ c (Proc.devRef .tc main_v14) = _ from s0_nodes (W0 m ρ c),
    show W1 m ρ c (Proc.devRef .tc main_v15) = _ from s0_b1 (W0 m ρ c),
    show W1 m ρ c (Proc.devRef .tc main_v16) = _ from s0_b2 (W0 m ρ c), biasRow, biasRow]
  rfl

/-- After the second call its output array is the second round of the first. -/
theorem h2_eq (c : Dev nD) : W4 m ρ c (Proc.devRef .tc main_v31)
    = roundAct (roundAct (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
        (m ((c : Thread nD τ).loc main_arg1)) (m ((c : Thread nD τ).loc main_arg3)) (m ((c : Thread nD τ).loc main_arg4)) (m ((c : Thread nD τ).loc main_arg5)) (m ((c : Thread nD τ).loc main_arg6)) := by
  refine ((W4_arr m ρ c 5).trans (Call1.out_eq (V3 m ρ) c)).trans ?_
  have k := keeps2 m ρ c (keeps1 m ρ c)
  have k3 := keeps3 m ρ c
  show layerAct (W3 m ρ c (Proc.devRef .tc main_v28)) (W3 m ρ c (Proc.devRef .tc main_arg3))
      (fun k => (W3 m ρ c (Proc.devRef .tc main_v29) : S1x128.Idx → EReal) (ix2 (0 : Fin 1) k))
      (W3 m ρ c (Proc.devRef .tc main_arg5))
      (fun k => (W3 m ρ c (Proc.devRef .tc main_v30) : S1x128.Idx → EReal) (ix2 (0 : Fin 1) k)) = _
  rw [k3.a3, k3.a5, show W3 m ρ c (Proc.devRef .tc main_v28) = _ from s1_nodes (W2 m ρ c),
    show W3 m ρ c (Proc.devRef .tc main_v29) = _ from s1_b1 (W2 m ρ c),
    show W3 m ρ c (Proc.devRef .tc main_v30) = _ from s1_b2 (W2 m ρ c), k.a4, k.a6, k.src, k.dst, h1_eq, biasRow, biasRow]
  rfl

/-- After the third call its output array is the third round, without the last clamp, of the second. -/
theorem h3_eq (c : Dev nD) : W6 m ρ c (Proc.devRef .tc main_v45)
    = roundOut (roundAct (roundAct (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
        (m ((c : Thread nD τ).loc main_arg1)) (m ((c : Thread nD τ).loc main_arg3)) (m ((c : Thread nD τ).loc main_arg4)) (m ((c : Thread nD τ).loc main_arg5)) (m ((c : Thread nD τ).loc main_arg6)))
        (m ((c : Thread nD τ).loc main_arg1)) (m ((c : Thread nD τ).loc main_arg3)) (m ((c : Thread nD τ).loc main_arg4)) (m ((c : Thread nD τ).loc main_arg5)) (m ((c : Thread nD τ).loc main_arg6)) := by
  refine ((W6_arr m ρ c 5).trans (Call2.out_eq (V5 m ρ) c)).trans ?_
  have k := keeps4 m ρ c (keeps3 m ρ c)
  have k5 := keeps5 m ρ c
  show layerOut (W5 m ρ c (Proc.devRef .tc main_v42)) (W5 m ρ c (Proc.devRef .tc main_arg3))
      (fun k => (W5 m ρ c (Proc.devRef .tc main_v43) : S1x128.Idx → EReal) (ix2 (0 : Fin 1) k))
      (W5 m ρ c (Proc.devRef .tc main_arg5))
      (fun k => (W5 m ρ c (Proc.devRef .tc main_v44) : S1x128.Idx → EReal) (ix2 (0 : Fin 1) k)) = _
  rw [k5.a3, k5.a5, show W5 m ρ c (Proc.devRef .tc main_v42) = _ from s2_nodes (W4 m ρ c),
    show W5 m ρ c (Proc.devRef .tc main_v43) = _ from s2_b1 (W4 m ρ c),
    show W5 m ρ c (Proc.devRef .tc main_v44) = _ from s2_b2 (W4 m ρ c), k.a4, k.a6, k.src, k.dst, h2_eq, biasRow, biasRow]
  rfl

/-- The result buffer's last contents are the network of the nine arguments. -/
theorem result_eq (c : Dev nD) : V7 m ρ c main_v61
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have k := keeps6 m ρ c (keeps5 m ρ c)
  refine (s3_result (W6 m ρ c)).trans ?_
  rw [k.a2, k.a7, k.a8, h3_eq]
  rfl

/-- The run, read: the result buffer ends at the network of the arguments, the arguments as launched. -/
theorem run : θ_run defs (onTc (τ := τ) (main (F := Ideal))) ⟨m, fun _ => 0, ρ⟩ (fun r => ∀ c : Dev nD,
      r.2.mem ((c.tc : Thread nD τ).loc main_v61)
        = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_result m ρ)

end Cert.KernelIdeal.Fold

end
-- ==== Proof.RefValue.lean ====
/-
  The reference's result is the network of its arguments.

  The reference's run ends with its result buffer at one composed term of host operations on the arguments. In that
  term the shared host groups appear as they are (`aggregate` three times, `poolHead` once), and between them three
  times the host's spelling of the perceptron: two contractions with the weight matrices, each with its flat bias laid
  down the rows, a maximum against a broadcast zero after the first and, in the first two rounds, after the second.
  Each spelling is the perceptron on the whole array (`hostLayerAct_eq`, `hostLayerOut_eq`); with the three spellings
  folded, the term is `forward` of the arguments, operation for operation.
-/
import proofs.«143180_j31911607009304_1_alg».proof.Proof.Gen.ReferenceIdeal.Run
import proofs.«143180_j31911607009304_1_alg».proof.Proof.Forward

set_option maxRecDepth 16384

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Value Cert.HostParts Cert.NodeMlp Cert.Forward

/-- The printed product contracts the left operand's lanes with the right operand's rows: the plain product. -/
theorem dot_plain : dot_S50000x128_S128x128_S50000x128_1_0_0_1_n_n = DotDims.plain 50000 128 128 := rfl

/-- The reference's result term is the network of the launched arguments. -/
theorem result_eq (m : (ℓ : Loc nD τ sig) → Buf (Elt Ideal) ℓ) (c : Dev nD) :
    res_main_v86 (F := Ideal) m c
      = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold forward roundOut roundAct
  rw [← hostLayerOut_eq (B := 50000) (H := 128) _ (m ((c.tc : Thread nD τ).loc main_arg3)) (m ((c.tc : Thread nD τ).loc main_arg5)) (m ((c.tc : Thread nD τ).loc main_arg4)) (m ((c.tc : Thread nD τ).loc main_arg6))
      bcast_S_S50000x128 bcast_S128_S1x128_1 bcast_S1x128_S50000x128_0_1,
    ← hostLayerAct_eq (B := 50000) (H := 128) _ (m ((c.tc : Thread nD τ).loc main_arg3)) (m ((c.tc : Thread nD τ).loc main_arg5)) (m ((c.tc : Thread nD τ).loc main_arg4)) (m ((c.tc : Thread nD τ).loc main_arg6))
      bcast_S_S50000x128 bcast_S128_S1x128_1 bcast_S1x128_S50000x128_0_1,
    ← hostLayerAct_eq (B := 50000) (H := 128) _ (m ((c.tc : Thread nD τ).loc main_arg3)) (m ((c.tc : Thread nD τ).loc main_arg5)) (m ((c.tc : Thread nD τ).loc main_arg4)) (m ((c.tc : Thread nD τ).loc main_arg6))
      bcast_S_S50000x128 bcast_S128_S1x128_1 bcast_S1x128_S50000x128_0_1,
    ← dot_plain]
  unfold res_main_v86
  rfl

end Cert.ReferenceIdeal.RefValue

end
-- ==== Proof.lean ====
/-
  The claim: the kernel of a three-round graph network and its reference end with equal results on the extended reals.

  Both programs compute, from node features `x`, an edge list, a graph number per node, the weights and biases of a
  shared two-layer perceptron and of a linear head: three rounds of "add to every node the rows of its incoming
  neighbours, then pass every row through the perceptron" (clamped at zero after the first two rounds), then the mean of
  the node rows of each graph through the head. The kernel runs the perceptron in a pipelined call over blocks of 5000
  nodes, feeding the matrix unit through a narrower float format; the reference contracts whole arrays on the host.

  On the extended reals the change of format is the identity, a product into a zero accumulator is the plain sum of
  products, and a row of the result depends on the same row of the input only: so each call leaves the same array as the
  reference's two contractions (`Call0` … `Call2` against `NodeMlp.hostLayerAct_eq` / `hostLayerOut_eq`). Everything
  else the two programs do is the same host operations on the same buffers (`HostParts`), so both result buffers end at
  ONE function of the arguments, `Forward.forward`: `KernelFold.run` for the kernel, `RefValue.result_eq` over the
  reference's run for the reference. No law of arithmetic that could fail at an infinity is used, so the precondition
  (finite inputs) is never opened. The frames are the programs' runs with the result dropped; the idealization
  rewrote nothing, so it preserves the kernel trivially.
-/
import proofs.«143180_j31911607009304_1_alg».proof.Defs
import proofs.«143180_j31911607009304_1_alg».proof.Proof.Gen.Kernel
import proofs.«143180_j31911607009304_1_alg».proof.Proof.Gen.Kernel.Skeleton
import proofs.«143180_j31911607009304_1_alg».proof.Proof.Gen.Kernel.Launch
import proofs.«143180_j31911607009304_1_alg».proof.Proof.Gen.Kernel.Points
import proofs.«143180_j31911607009304_1_alg».proof.Proof.Gen.Kernel.Frame
import proofs.«143180_j31911607009304_1_alg».proof.Proof.Gen.KernelIdeal
import proofs.«143180_j31911607009304_1_alg».proof.Proof.Gen.KernelIdeal.Skeleton
import proofs.«143180_j31911607009304_1_alg».proof.Proof.Gen.KernelIdeal.Launch
import proofs.«143180_j31911607009304_1_alg».proof.Proof.Gen.KernelIdeal.Points
import proofs.«143180_j31911607009304_1_alg».proof.Proof.Gen.KernelIdeal.Frame
import proofs.«143180_j31911607009304_1_alg».proof.Proof.Gen.ReferenceIdeal
import proofs.«143180_j31911607009304_1_alg».proof.Proof.Gen.ReferenceIdeal.Run
import proofs.«143180_j31911607009304_1_alg».proof.Proof.Gen.ReferenceIdeal.Read
import proofs.«143180_j31911607009304_1_alg».proof.Proof.Gen.Pre_finite_inputs
import proofs.«143180_j31911607009304_1_alg».proof.Proof.KernelFold
import proofs.«143180_j31911607009304_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network of those arguments in their
    result buffers. -/
theorem algebraic : Cert.algebraic_KernelIdeal_ReferenceIdeal := by
  intro m ρ m' ρ' _ hagree
  refine ⟨fun c => Cert.Forward.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.RefValue.result_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
